-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x1024x64 : Shape := ⟨4, ![4, 16, 1024, 64]⟩
abbrev S4x16x1024x1024 : Shape := ⟨4, ![4, 16, 1024, 1024]⟩
abbrev S_ : Shape := ⟨0, ![]⟩

class Facts : Prop where
  bcast_S_S4x16x1024x64 : S_.BroadcastsInDim S4x16x1024x64 (![] : Fin 0 → Fin S4x16x1024x64.rank)
  reducesTo_S4x16x1024x64_S_d0_1_2_3 : S4x16x1024x64.ReducesTo [0, 1, 2, 3] S_
  h_S_ : 0 < S_.numel

variable [Facts]

def fn {F : FTy → Type} [FloatOps F] (main_arg0 : FVec F S4x16x1024x64 .f32) (main_arg1 : FVec F S4x16x1024x64 .f32) (main_arg2 : FVec F S4x16x1024x64 .f32) (main_arg3 : IVec S4x16x1024x1024 1) : IVec S_ 1 :=
  let main_v0 : FVec F S4x16x1024x64 .f32 := Host.absf main_arg0
  let main_cst : FVec F S_ .f32 := constant S_ .f32 0x7F800000#32
  let main_v1 : FVec F S4x16x1024x64 .f32 := broadcastInDim S4x16x1024x64 ![] bcast_S_S4x16x1024x64 main_cst
  let main_v2 : IVec S4x16x1024x64 1 := cmpf .olt main_v0 main_v1
  let main_c : IVec S_ 1 := constantI S_ 1 1#1
  let main_v3 : IVec S_ 1 := (fun x v => Host.reduce IntOp.andi x v reducesTo_S4x16x1024x64_S_d0_1_2_3 h_S_) main_v2 main_c
  let main_v4 : FVec F S4x16x1024x64 .f32 := Host.absf main_arg1
  let main_cst_0 : FVec F S_ .f32 := constant S_ .f32 0x7F800000#32
  let main_v5 : FVec F S4x16x1024x64 .f32 := broadcastInDim S4x16x1024x64 ![] bcast_S_S4x16x1024x64 main_cst_0
  let main_v6 : IVec S4x16x1024x64 1 := cmpf .olt main_v4 main_v5
  let main_c_1 : IVec S_ 1 := constantI S_ 1 1#1
  let main_v7 : IVec S_ 1 := (fun x v => Host.reduce IntOp.andi x v reducesTo_S4x16x1024x64_S_d0_1_2_3 h_S_) main_v6 main_c_1
  let main_v8 : IVec S_ 1 := andi main_v3 main_v7
  let main_v9 : FVec F S4x16x1024x64 .f32 := Host.absf main_arg2
  let main_cst_2 : FVec F S_ .f32 := constant S_ .f32 0x7F800000#32
  let main_v10 : FVec F S4x16x1024x64 .f32 := broadcastInDim S4x16x1024x64 ![] bcast_S_S4x16x1024x64 main_cst_2
  let main_v11 : IVec S4x16x1024x64 1 := cmpf .olt main_v9 main_v10
  let main_c_3 : IVec S_ 1 := constantI S_ 1 1#1
  let main_v12 : IVec S_ 1 := (fun x v => Host.reduce IntOp.andi x v reducesTo_S4x16x1024x64_S_d0_1_2_3 h_S_) main_v11 main_c_3
  let main_v13 : IVec S_ 1 := andi main_v8 main_v12
  main_v13
-- ==== Kernel.lean ====
abbrev S4x16x1024x64 : Shape := ⟨4, ![4, 16, 1024, 64]⟩
abbrev S4x16x1024x1024 : Shape := ⟨4, ![4, 16, 1024, 1024]⟩
abbrev S1x1x1024x64 : Shape := ⟨4, ![1, 1, 1024, 64]⟩
abbrev S1x1x1024x1024 : Shape := ⟨4, ![1, 1, 1024, 1024]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S4x16x1024x64, .f32⟩
  | .hbm, ⟨1, _⟩ => ⟨S4x16x1024x64, .f32⟩
  | .hbm, ⟨2, _⟩ => ⟨S4x16x1024x64, .f32⟩
  | .hbm, ⟨3, _⟩ => ⟨S4x16x1024x1024, .i1⟩
  | .hbm, ⟨4, _⟩ => ⟨S4x16x1024x1024, .i32⟩
  | .hbm, ⟨5, _⟩ => ⟨S4x16x1024x64, .f32⟩
  | .hbm, ⟨6, _⟩ => ⟨S4x16x1024x1024, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x1024x64, .f32⟩
  | .local _ .vmem, ⟨3, _⟩ => ⟨S1x1x1024x64, .f32⟩
  | .local _ .vmem, ⟨4, _⟩ => ⟨S1x1x1024x64, .f32⟩
  | .local _ .vmem, ⟨5, _⟩ => ⟨S1x1x1024x64, .f32⟩
  | .local _ .vmem, ⟨6, _⟩ => ⟨S1x1x1024x1024, .i32⟩
  | .local _ .vmem, ⟨7, _⟩ => ⟨S1x1x1024x1024, .i32⟩
  | .local _ .vmem, ⟨8, _⟩ => ⟨S1x1x1024x64, .f32⟩
  | .local _ .vmem, ⟨9, _⟩ => ⟨S1x1x1024x64, .f32⟩
  | .local _ .vmem, ⟨10, _⟩ => ⟨S1x1x1024x1024, .f32⟩
  | .local _ .vmem, ⟨11, _⟩ => ⟨S1x1x1024x1024, .f32⟩
  | _, _ => ⟨S4x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  natLt_1_32 : 1 < 32
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  bitsLt_bf16_f32 : FTy.bits .bf16 < FTy.bits .f32
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S1x1x1024x1024 : S1024x1024.ShapeCasts S1x1x1024x1024
  shapeCasts_S1024x64_S1x1x1024x64 : S1024x64.ShapeCasts S1x1x1024x64
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S4x16x1024x64.size a
  hwx0_0 : ∀ i : grid0.Coords, EltTy.bits .f32 = 32 ∨ (Rect.block (s := S4x16x1024x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x64.size a ≤ S4x16x1024x64.size a
  hwx0_1 : ∀ i : grid0.Coords, EltTy.bits .f32 = 32 ∨ (Rect.block (s := S4x16x1024x64) S1x1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x64.size a ≤ S4x16x1024x64.size a
  hwx0_2 : ∀ i : grid0.Coords, EltTy.bits .f32 = 32 ∨ (Rect.block (s := S4x16x1024x64) S1x1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x1024.size a ≤ S4x16x1024x1024.size a
  hwx0_3 : ∀ i : grid0.Coords, EltTy.bits .i32 = 32 ∨ (Rect.block (s := S4x16x1024x1024) S1x1x1024x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x64.size a ≤ S4x16x1024x64.size a
  hwx0_4 : ∀ i : grid0.Coords, EltTy.bits .f32 = 32 ∨ (Rect.block (s := S4x16x1024x64) S1x1x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024x1024.size a ≤ S4x16x1024x1024.size a
  hwx0_5 : ∀ i : grid0.Coords, EltTy.bits .f32 = 32 ∨ (Rect.block (s := S4x16x1024x1024) S1x1x1024x1024.size (cc0_transform_5 i) (hinb0_5 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x1024x64 : Shape := ⟨4, ![4, 16, 1024, 64]⟩
abbrev S4x16x1024x1024 : Shape := ⟨4, ![4, 16, 1024, 1024]⟩
abbrev S_ : Shape := ⟨0, ![]⟩
abbrev S4x16x1024 : Shape := ⟨3, ![4, 16, 1024]⟩
abbrev S4x16x1024x1 : Shape := ⟨4, ![4, 16, 1024, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x16x1024x64, .f32⟩
  | .hbm, ⟨1, _⟩ => ⟨S4x16x1024x64, .f32⟩
  | .hbm, ⟨2, _⟩ => ⟨S4x16x1024x64, .f32⟩
  | .hbm, ⟨3, _⟩ => ⟨S4x16x1024x1024, .i1⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x16x1024x1024, .f32⟩
  | .hbm, ⟨9, _⟩ => ⟨S4x16x1024x1024, .f32⟩
  | .hbm, ⟨10, _⟩ => ⟨S4x16x1024x1024, .f32⟩
  | .hbm, ⟨11, _⟩ => ⟨S_, .f32⟩
  | .hbm, ⟨12, _⟩ => ⟨S4x16x1024x1024, .f32⟩
  | .hbm, ⟨13, _⟩ => ⟨S4x16x1024x1024, .f32⟩
  | .hbm, ⟨14, _⟩ => ⟨S_, .f32⟩
  | .hbm, ⟨15, _⟩ => ⟨S4x16x1024, .f32⟩
  | .hbm, ⟨16, _⟩ => ⟨S_, .f32⟩
  | .hbm, ⟨17, _⟩ => ⟨S4x16x1024, .f32⟩
  | .hbm, ⟨18, _⟩ => ⟨S4x16x1024, .f32⟩
  | .hbm, ⟨19, _⟩ => ⟨S4x16x1024x1, .f32⟩
  | .hbm, ⟨20, _⟩ => ⟨S4x16x1024x1024, .f32⟩
  | .hbm, ⟨21, _⟩ => ⟨S4x16x1024x1024, .f32⟩
  | .hbm, ⟨22, _⟩ => ⟨S4x16x1024x1024, .f32⟩
  | .hbm, ⟨23, _⟩ => ⟨S_, .f32⟩
  | .hbm, ⟨24, _⟩ => ⟨S4x16x1024, .f32⟩
  | .hbm, ⟨25, _⟩ => ⟨S4x16x1024x1, .f32⟩
  | .hbm, ⟨26, _⟩ => ⟨S4x16x1024x1024, .f32⟩
  | .hbm, ⟨27, _⟩ => ⟨S4x16x1024x1024, .f32⟩
  | .hbm, ⟨28, _⟩ => ⟨S4x16x1024x64, .f32⟩
  | _, _ => ⟨S4x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_call0_v0 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S_S4x16x1024x1024 : S_.BroadcastsInDim S4x16x1024x1024 (![] : Fin 0 → Fin S4x16x1024x1024.rank)
  reducesTo_S4x16x1024x1024_S4x16x1024_d3 : S4x16x1024x1024.ReducesTo [3] S4x16x1024
  h_S_ : 0 < S_.numel
  bcast_S_S4x16x1024 : S_.BroadcastsInDim S4x16x1024 (![] : Fin 0 → Fin S4x16x1024.rank)
  bcast_S4x16x1024_S4x16x1024x1_0_1_2 : S4x16x1024.BroadcastsInDim S4x16x1024x1 (![0, 1, 2] : Fin 3 → Fin S4x16x1024x1.rank)
  bcast_S4x16x1024x1_S4x16x1024x1024_0_1_2_3 : S4x16x1024x1.BroadcastsInDim S4x16x1024x1024 (![0, 1, 2, 3] : Fin 4 → Fin S4x16x1024x1024.rank)
  dot_S4x16x1024x64_S4x16x1024x64_S4x16x1024x1024_3_3_2_2_01_01_wf : DotDims.WF S4x16x1024x64 S4x16x1024x64 S4x16x1024x1024 [3] [3] [2] [2] [0, 1] [0, 1]
  dot_S4x16x1024x1024_S4x16x1024x64_S4x16x1024x64_3_2_2_3_01_01_wf : DotDims.WF S4x16x1024x1024 S4x16x1024x64 S4x16x1024x64 [3] [2] [2] [3] [0, 1] [0, 1]

variable [Facts₀]

def dot_S4x16x1024x64_S4x16x1024x64_S4x16x1024x1024_3_3_2_2_01_01 : DotDims S4x16x1024x64 S4x16x1024x64 S4x16x1024x1024 where
  lhsContracting := [3]
  rhsContracting := [3]
  lhsNonContracting := [2]
  rhsNonContracting := [2]
  lhsBatch := [0, 1]
  rhsBatch := [0, 1]
  wf := dot_S4x16x1024x64_S4x16x1024x64_S4x16x1024x1024_3_3_2_2_01_01_wf
def dot_S4x16x1024x1024_S4x16x1024x64_S4x16x1024x64_3_2_2_3_01_01 : DotDims S4x16x1024x1024 S4x16x1024x64 S4x16x1024x64 where
  lhsContracting := [3]
  rhsContracting := [2]
  lhsNonContracting := [2]
  rhsNonContracting := [3]
  lhsBatch := [0, 1]
  rhsBatch := [0, 1]
  wf := dot_S4x16x1024x1024_S4x16x1024x64_S4x16x1024x64_3_2_2_3_01_01_wf

class Facts : Prop extends Facts₀ where

variable [Facts]
-- ==== Proof.KernelPieces.lean ====
/-
  What one grid point's body leaves in its two output blocks, as values of the four input blocks.

  The body loads the query, key, value and mask blocks whole, stores the attention weights — one pure term of the
  query, key and mask blocks — over the whole of the weights' block, loads that block back, and stores the product of
  what it read with the value block over the whole of the context's block. Each output block therefore ends holding
  ONE store's payload: the weights' block the softmax term itself, the context's block the product term of the
  value block and of the softmax term again, since a load of a block just stored whole reads what was stored.
  Stated at any float instance.
-/
import proofs.«142894_j64768106823937_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

/-- The offsets of a whole block are all zero. -/
theorem hz : (![0, 0, 0, 0] : Fin 4 → Nat) = fun _ => 0 := funext fun a => by fin_cases a <;> rfl

/-- The weights' block after the body: the softmax term of the query, key and mask blocks. -/
theorem attn_piece (c : Dev nD) (i : grid0.Coords) (arg2 : Memref sig .tc .vmem S1x1x1024x64 .f32) (harg2 : arg2.IsWhole) (arg3 : Memref sig .tc .vmem S1x1x1024x64 .f32) (harg3 : arg3.IsWhole) (arg4 : Memref sig .tc .vmem S1x1x1024x64 .f32) (harg4 : arg4.IsWhole) (arg5 : Memref sig .tc .vmem S1x1x1024x1024 .i32) (harg5 : arg5.IsWhole) (arg6 : Memref sig .tc .vmem S1x1x1024x64 .f32) (harg6 : arg6.IsWhole) (arg7 : Memref sig .tc .vmem S1x1x1024x1024 .f32) (harg7 : arg7.IsWhole)
    (x0 : Vec F S1x1x1024x64 .f32) (x1 : Vec F S1x1x1024x64 .f32) (x2 : Vec F S1x1x1024x64 .f32) (x3 : Vec F S1x1x1024x1024 .i32) :
    out0_A_5 c i arg2 harg2 arg3 harg3 arg4 harg4 arg5 harg5 arg6 harg6 arg7 harg7 x0 x1 x2 x3 = k0_pay3 x0 x1 x3 := by
  unfold out0_A_5
  rw [View.read_writes_eq_canon _ _ _ (cover0_A_5 c i arg2 harg2 arg3 harg3 arg4 harg4 arg5 harg5 arg6 harg6 arg7 harg7 x0 x1 x2 x3)]
  unfold kernelRun0_A
  dsimp only
  sl_unfold_words
  rw [View.canon_unit_zero hz]
  simp only [View.readAt_eq_ld, harg2.read_unread, harg3.read_unread, harg5.read_unread,
    View.ld_unit_zero (S := S1x1x1024x64) hz, View.ld_unit_zero (S := S1x1x1024x1024) hz]

/-- The context's block after the body: the product term of the value block and of the weights read back, which are
    the softmax term of the query, key and mask blocks. -/
theorem ctx_piece (c : Dev nD) (i : grid0.Coords) (arg2 : Memref sig .tc .vmem S1x1x1024x64 .f32) (harg2 : arg2.IsWhole) (arg3 : Memref sig .tc .vmem S1x1x1024x64 .f32) (harg3 : arg3.IsWhole) (arg4 : Memref sig .tc .vmem S1x1x1024x64 .f32) (harg4 : arg4.IsWhole) (arg5 : Memref sig .tc .vmem S1x1x1024x1024 .i32) (harg5 : arg5.IsWhole) (arg6 : Memref sig .tc .vmem S1x1x1024x64 .f32) (harg6 : arg6.IsWhole) (arg7 : Memref sig .tc .vmem S1x1x1024x1024 .f32) (harg7 : arg7.IsWhole)
    (x0 : Vec F S1x1x1024x64 .f32) (x1 : Vec F S1x1x1024x64 .f32) (x2 : Vec F S1x1x1024x64 .f32) (x3 : Vec F S1x1x1024x1024 .i32) :
    out0_A_4 c i arg2 harg2 arg3 harg3 arg4 harg4 arg5 harg5 arg6 harg6 arg7 harg7 x0 x1 x2 x3 = k0_pay1 (k0_pay2 x2) (k0_pay3 x0 x1 x3) := by
  unfold out0_A_4
  rw [View.read_writes_eq_canon _ _ _ (cover0_A_4 c i arg2 harg2 arg3 harg3 arg4 harg4 arg5 harg5 arg6 harg6 arg7 harg7 x0 x1 x2 x3)]
  unfold kernelRun0_A
  dsimp only
  sl_unfold_words
  rw [View.canon_unit_zero hz, View.readCov_unit_zero (S := S1x1x1024x1024) _ hz]
  simp only [View.readAt_eq_ld, harg2.read_unread, harg3.read_unread, harg4.read_unread, harg5.read_unread,
    View.ld_unit_zero (S := S1x1x1024x64) hz, View.ld_unit_zero (S := S1x1x1024x1024) hz]

end Cert.KernelIdeal.Pieces

end
-- ==== Proof.LibLastAxisFolds.lean ====
/-
  Folds along the LAST axis of a rank-2 array at the ideal values, in the form a kernel's own text takes.

  A kernel's `vector.multi_reduction` carries two facts besides its operand: that its float type is one the
  operation is defined at, and that its accumulator is the operation's neutral word. A printed kernel states the
  first as the disjunction itself and the second as an equation between the two literal words. The lemmas here take
  the two facts in exactly that spelling, for any extents, so they rewrite a kernel's value as it stands:

  * `rowsum_fn` / `rowmax_fn`: the reduction, as a function of the row, is the sum over the row / the fold of `max`
    over the row from minus infinity. They contain no index, so `rw` can replace every reduction of a value before
    the value is read at an entry, also the ones that end up under a sum or a fold;
  * `rowsum_apply` / `rowmax_apply`: the same at a row given by its coordinate.

  With them: a one-column matrix `[a, 1]` laid out as one row `[1, a]` read at `(u, i)` is the column at `(i, 0)`, the
  counterpart of a vector laid out as a row; and square root, exponential and sigmoid of a vector read at an index.
-/
import Idealize.ShloMosaic.PureOps.Ideal.Laws
import Idealize.ShloMosaic.Lib.ValueIdx
import Idealize.ShloMosaic.Lib.Pipeline.Value

noncomputable section

namespace Cert.Lib.LastAxisFolds

open Idealize.ShloMosaic Idealize.ShloMosaic.ValueIdx

/-- A sum along the last axis from zero, read at its row: the sum over the row. -/
theorem rowsum_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => ?_
  exact congrArg src (funext fun d => Fin.ext (by match d with | ⟨0, _⟩ => rfl | ⟨1, _⟩ => rfl))

/-- A maximum along the last axis from minus infinity, read at its row: the fold of `max` over the row. -/
theorem rowmax_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine congrArg (fun f => (Finset.univ : Finset (Fin b)).fold max (Ideal.ofBits .f32 0xFF800000#32) f) (funext fun k => ?_)
  exact congrArg src (funext fun d => Fin.ext (by match d with | ⟨0, _⟩ => rfl | ⟨1, _⟩ => rfl))

/-- The sum along the last axis as a function of the row. -/
theorem rowsum_fn {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) :
    multiReduction .add [1] ⟨1, ![a]⟩ src 0x00000000#32 h hφ hacc = fun j => ∑ k : Fin b, src (ix2 (j 0) k) :=
  funext fun j => by
    rw [eq_ix1 j]
    exact rowsum_apply src h hφ hacc (j 0)

/-- The maximum along the last axis as a function of the row. -/
theorem rowmax_fn {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32) :
    multiReduction .maximumf [1] ⟨1, ![a]⟩ src 0xFF800000#32 h hφ hacc
      = fun j => (Finset.univ : Finset (Fin b)).fold max (Ideal.ofBits .f32 0xFF800000#32) (fun k => src (ix2 (j 0) k)) :=
  funext fun j => by
    rw [eq_ix1 j]
    exact rowmax_apply src h hφ hacc (j 0)

/-- A one-column matrix laid out as one row reads, at `(u, i)`, the column's entry in row `i`. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.mul_one, Nat.add_zero, Nat.zero_add])

/-- The square root of a vector read at an index. -/
theorem sqrt_apply {s : Shape} {φ : FTy} (a : FVec Ideal s φ) (i : s.Idx) : sqrt a i = Ideal.sqrt (a i) := rfl
/-- The exponential of a vector read at an index. -/
theorem exp_apply {s : Shape} {φ : FTy} (a : FVec Ideal s φ) (i : s.Idx) : exp a i = Ideal.exp (a i) := rfl
/-- The sigmoid of a vector read at an index. -/
theorem logistic_apply {s : Shape} {φ : FTy} (a : FVec Ideal s φ) (i : s.Idx) : logistic a i = Ideal.logistic (a i) := rfl

end Cert.Lib.LastAxisFolds

end
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.LibRowSoftmax.lean ====
/-
  The softmax of a matrix along its rows, on the extended reals, and the form a kernel body gives it.

  For a score matrix `s` with rows `q` and columns `k`:
    rowMax s q     the maximum of row q, folded from minus infinity (the pattern 0xFF800000);
    weight s q k   exp (s q k − rowMax s q);
    softmax s q k  weight s q k / Σ_k' weight s q k', the quotient the exact division of the extended reals.

  A kernel computes it on a vector of shape [a, b] in seven operations: the maximum of each row (a fold along the last
  axis from minus infinity), kept as a column [a, 1] and repeated along the row; the exponential of the difference; the
  sum of each row of exponentials (a fold along the last axis from zero), kept as a column and repeated along the row;
  and the quotient. At an entry (q, k) every one of these reads one entry, one row's fold or one row's sum of its operand,
  so the whole term is `softmax` of the matrix of the vector (`softmax_apply`; the numerator alone is `weights_apply`).
  For any extents.
-/
import proofs.«142894_j64768106823937_2_alg».proof.Proof.LibLastAxisFolds
import proofs.«142894_j64768106823937_2_alg».proof.Proof.LibColumnLayout

noncomputable section

namespace Cert.Lib.RowSoftmax

open Idealize.ShloMosaic Idealize.ShloMosaic.ValueIdx

/-- The maximum of row `q` of a matrix, folded from minus infinity. -/
def rowMax {n m : ℕ} (s : Fin n → Fin m → EReal) (q : Fin n) : EReal :=
  (Finset.univ : Finset (Fin m)).fold max (Ideal.ofBits .f32 0xFF800000#32) (s q)

/-- The unnormalised weight: the exponential of an entry less its row's maximum. -/
def weight {n m : ℕ} (s : Fin n → Fin m → EReal) (q : Fin n) (k : Fin m) : EReal :=
  Ideal.exp (s q k - rowMax s q)

/-- The softmax of a matrix along its rows. -/
def softmax {n m : ℕ} (s : Fin n → Fin m → EReal) (q : Fin n) (k : Fin m) : EReal :=
  Ideal.div (weight s q k) (∑ k' : Fin m, weight s q k')

variable {a b : ℕ}
/-- A rank-two vector as a matrix of its two coordinates. -/
def mat (s : FVec Ideal ⟨2, ![a, b]⟩ .f32) : Fin a → Fin b → EReal := fun q k => s (ix2 q k)

/-- The exponential of the scores less their row maximum (kept as a column and repeated along the row), at an entry. -/
theorem weights_apply (s : FVec Ideal ⟨2, ![a, b]⟩ .f32)
    (hr : (⟨2, ![a, b]⟩ : Shape).Reduces [1] ⟨1, ![a]⟩) (hφ : FTy.f32 = FTy.f32 ∨ FTy.f32 = FTy.bf16)
    (hmax : (0xFF800000#32 : BitVec FTy.f32.bits) = 0xFF800000#32)
    (hc : (⟨1, ![a]⟩ : Shape).ShapeCasts ⟨2, ![a, 1]⟩) (hb : (⟨2, ![a, 1]⟩ : Shape).Broadcasts ⟨2, ![a, b]⟩)
    (q : Fin a) (k : Fin b) :
    exp (subf s (broadcastTo ⟨2, ![a, b]⟩
        (shapeCast ⟨2, ![a, 1]⟩ (multiReduction .maximumf [1] ⟨1, ![a]⟩ s 0xFF800000#32 hr hφ hmax) hc) hb)) (ix2 q k)
      = weight (mat s) q k := by
  show Ideal.exp (s (ix2 q k) - broadcastTo ⟨2, ![a, b]⟩
        (shapeCast ⟨2, ![a, 1]⟩ (multiReduction .maximumf [1] ⟨1, ![a]⟩ s 0xFF800000#32 hr hφ hmax) hc) hb (ix2 q k)) = _
  rw [ColumnLayout.broadcastTo_a1_ab_apply, ColumnLayout.shapeCast_a_a1_apply, Cert.Lib.LastAxisFolds.rowmax_apply]
  rfl

/-- The quotient of the exponentials by their row sums (kept as a column and repeated along the row), at an entry:
    the softmax of the score matrix. -/
theorem softmax_apply (s : FVec Ideal ⟨2, ![a, b]⟩ .f32)
    (hr : (⟨2, ![a, b]⟩ : Shape).Reduces [1] ⟨1, ![a]⟩) (hφ : FTy.f32 = FTy.f32 ∨ FTy.f32 = FTy.bf16)
    (hmax : (0xFF800000#32 : BitVec FTy.f32.bits) = 0xFF800000#32)
    (hsum : (0x00000000#32 : BitVec FTy.f32.bits) = 0x00000000#32)
    (hc : (⟨1, ![a]⟩ : Shape).ShapeCasts ⟨2, ![a, 1]⟩) (hb : (⟨2, ![a, 1]⟩ : Shape).Broadcasts ⟨2, ![a, b]⟩)
    (q : Fin a) (k : Fin b) :
    divf
      (exp (subf s (broadcastTo ⟨2, ![a, b]⟩
        (shapeCast ⟨2, ![a, 1]⟩ (multiReduction .maximumf [1] ⟨1, ![a]⟩ s 0xFF800000#32 hr hφ hmax) hc) hb)))
      (broadcastTo ⟨2, ![a, b]⟩
        (shapeCast ⟨2, ![a, 1]⟩ (multiReduction .add [1] ⟨1, ![a]⟩
          (exp (subf s (broadcastTo ⟨2, ![a, b]⟩
            (shapeCast ⟨2, ![a, 1]⟩ (multiReduction .maximumf [1] ⟨1, ![a]⟩ s 0xFF800000#32 hr hφ hmax) hc) hb)))
          0x00000000#32 hr hφ hsum) hc) hb) (ix2 q k)
      = softmax (mat s) q k := by
  refine (divf_apply _ _ _).trans ?_
  rw [ColumnLayout.broadcastTo_a1_ab_apply, ColumnLayout.shapeCast_a_a1_apply, Cert.Lib.LastAxisFolds.rowsum_apply,
    weights_apply s hr hφ hmax hc hb q k]
  unfold softmax
  exact congrArg (Ideal.div (weight (mat s) q k))
    (Finset.sum_congr rfl fun k' _ => weights_apply s hr hφ hmax hc hb q k')

end Cert.Lib.RowSoftmax

end
-- ==== Proof.Attention.lean ====
/-
  Masked scaled dot-product attention, as functions on the extended reals.

  For one batch entry and one head, with queries `qf`, keys `kf` (rows of length 64), values `vf` and a mask of
  one-bit words over pairs (query, key):

    score q k  =  the fill value  -1e9             where the mask's word at (q, k) is one,
                  (Σ_d qf q d · kf k d) · (1/4)     elsewhere;
    softmax of a score matrix at (q, k)  =  exp (s q k − max_k' s q k') / Σ_k' exp (s q k' − max_k'' s q k''),
        the maximum taken from minus infinity, the quotient the exact division of the extended reals
        (the row softmax of any matrix, stated once for all extents in its own module);
    context q d  =  Σ_k softmax(score) q k · vf k d.

  The literals stay as the binary patterns both programs spell (the fill value and one quarter are the same words on
  both sides, so they are never evaluated). The whole-array results read a rank-four index by its coordinates:
  (batch, head, query, key) for the attention weights and (batch, head, query, feature) for the context.
-/
import proofs.«142894_j64768106823937_2_alg».proof.Proof.LibRowSoftmax
import Idealize.ShloMosaic.PureOps.Ideal
import Idealize.ShloMosaic.Lib.ValueIdx

noncomputable section

namespace Cert.Attention

open Idealize.ShloMosaic Idealize.ShloMosaic.ValueIdx

export Cert.Lib.RowSoftmax (rowMax weight softmax)

/-- The masked, scaled score of query `q` against key `k`. -/
def score (qf kf : Fin 1024 → Fin 64 → EReal) (msk : Fin 1024 → Fin 1024 → BitVec 1) (q k : Fin 1024) : EReal :=
  Scalar.select (msk q k) (Ideal.ofBits .f32 0xCE6E6B28#32)
    ((∑ d : Fin 64, qf q d * kf k d) * Ideal.ofBits .f32 0x3E800000#32)

/-- The attention weights of one head. -/
def probs (qf kf : Fin 1024 → Fin 64 → EReal) (msk : Fin 1024 → Fin 1024 → BitVec 1) (q k : Fin 1024) : EReal :=
  softmax (score qf kf msk) q k

/-- The context of one head: the weights applied to the values. -/
def context (qf kf vf : Fin 1024 → Fin 64 → EReal) (msk : Fin 1024 → Fin 1024 → BitVec 1) (q : Fin 1024) (d : Fin 64) : EReal :=
  ∑ k : Fin 1024, probs qf kf msk q k * vf k d

/-- The rows of one (batch, head) pair of a [4, 16, 1024, 64] array. -/
def head (X : FVec Ideal ⟨4, ![4, 16, 1024, 64]⟩ .f32) (b : Fin 4) (h : Fin 16) : Fin 1024 → Fin 64 → EReal :=
  fun q d => X (ix4 b h q d)

/-- The mask of one (batch, head) pair of a [4, 16, 1024, 1024] array of one-bit words. -/
def headMask (M : IVec ⟨4, ![4, 16, 1024, 1024]⟩ 1) (b : Fin 4) (h : Fin 16) : Fin 1024 → Fin 1024 → BitVec 1 :=
  fun q k => M (ix4 b h q k)

/-- The attention weights, as one function of the argument arrays. -/
def attnOut (Q K : FVec Ideal ⟨4, ![4, 16, 1024, 64]⟩ .f32) (M : IVec ⟨4, ![4, 16, 1024, 1024]⟩ 1) :
    FVec Ideal ⟨4, ![4, 16, 1024, 1024]⟩ .f32 :=
  fun i => probs (head Q (i 0) (i 1)) (head K (i 0) (i 1)) (headMask M (i 0) (i 1)) (i 2) (i 3)

/-- The context, as one function of the argument arrays. -/
def ctxOut (Q K V : FVec Ideal ⟨4, ![4, 16, 1024, 64]⟩ .f32) (M : IVec ⟨4, ![4, 16, 1024, 1024]⟩ 1) :
    FVec Ideal ⟨4, ![4, 16, 1024, 64]⟩ .f32 :=
  fun i => context (head Q (i 0) (i 1)) (head K (i 0) (i 1)) (head V (i 0) (i 1)) (headMask M (i 0) (i 1)) (i 2) (i 3)

end Cert.Attention

end
-- ==== Proof.LibTransposedMatmul.lean ====
/-
  A matrix product against a TRANSPOSED right operand, into a zero accumulator, read at a row and a column.

  For dimension numbers that contract the left operand's columns with the right operand's COLUMNS (no batch axis) —
  the product  A Bᵀ  of an `[M, K]` matrix and an `[N, K]` matrix —, entry `(r, c)` accumulated into zero is the sum over
  `k` of `lhs (r, k) * rhs (c, k)` on the extended reals: the accumulator contributes `0`, and the contraction index,
  a rank-one index, is re-indexed by its one coordinate. Stated for any extents and float formats, with the dimension
  numbers given by their six lists, so that any printed record with these lists unifies.
-/
import Idealize.ShloMosaic.PureOps.Ideal.Laws
import Idealize.ShloMosaic.Lib.ValueIdx

namespace Cert.Lib.TransposedMatmul

open Idealize.ShloMosaic Idealize.ShloMosaic.ValueIdx

set_option backward.isDefEq.respectTransparency.types false in
/-- The product of `[M, K]` by the transpose of `[N, K]` into the zero splat, at `(r, c)`: `∑ k, lhs (r, k) * rhs (c, k)`. -/
theorem matmul_zero_apply {M K N : ℕ} {φ₁ φ₂ : FTy}
    (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (lhs : FVec Ideal ⟨2, ![M, K]⟩ φ₁) (rhs : FVec Ideal ⟨2, ![N, K]⟩ φ₂)
    (r : Fin M) (c : Fin N) :
    FloatOps.matmul d prec lhs rhs (constant ⟨2, ![M, N]⟩ .f32 0x00000000#32) (ix2 r c)
      = ∑ k : Fin K, lhs (ix2 r k) * rhs (ix2 c k) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : (⟨[1], [1], [0], [0], [], [], wf⟩ : DotDims ⟨2, ![M, K]⟩ ⟨2, ![N, K]⟩ ⟨2, ![M, N]⟩).lhsIdx (ix2 r c)
      ((contrEquiv1 (⟨[1], [1], [0], [0], [], [], wf⟩ : DotDims ⟨2, ![M, K]⟩ ⟨2, ![N, K]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [1], [0], [0], [], [], wf⟩ : DotDims ⟨2, ![M, K]⟩ ⟨2, ![N, K]⟩ ⟨2, ![M, N]⟩).rhsIdx (ix2 r c)
      ((contrEquiv1 (⟨[1], [1], [0], [0], [], [], wf⟩ : DotDims ⟨2, ![M, K]⟩ ⟨2, ![N, K]⟩ ⟨2, ![M, N]⟩) K rfl rfl).symm k) = ix2 c k :=
    funext fun a => Fin.ext (by
      match a with
      | ⟨0, h0⟩ =>
        unfold DotDims.rhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.rhsIdx_val_of_single _ rfl _ _).trans hk)
  rw [el, er]

end Cert.Lib.TransposedMatmul
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.LibLeadingUnitPair.lean ====
/-
  Two leading unit axes dropped and added, read at coordinates.

  A kernel gridded over two squeezed leading axes sees each operand as a block [1, 1, n, m]; its body views the block
  as the matrix [n, m] and stores a matrix result back as such a block. Both reshapes keep the row-major position,
  which is `q * m + d` on both sides because the two unit coordinates are zero: the matrix view reads the block at
  (0, 0, q, d), and the block view of a matrix reads the matrix at (q, d) whatever the two unit coordinates. For any
  element type and extents.
-/
import Idealize.ShloMosaic.Lib.Pipeline.Value
import Idealize.ShloMosaic.Lib.ValueIdx

namespace Cert.Lib.LeadingUnitPair

open Idealize.ShloMosaic Idealize.ShloMosaic.ValueIdx

variable {α : Type} {n m : ℕ}

/-- A block [1, 1, n, m] viewed as the matrix [n, m] reads, at (q, d), the block at (0, 0, q, d). -/
theorem shapeCast_11nm_nm_apply (x : (⟨4, ![1, 1, n, m]⟩ : Shape).Idx → α)
    (h : (⟨4, ![1, 1, n, m]⟩ : Shape).ShapeCasts ⟨2, ![n, m]⟩) (q : Fin n) (d : Fin m) :
    shapeCast ⟨2, ![n, m]⟩ x h (ix2 q d) = x (ix4 (0 : Fin 1) (0 : Fin 1) q d) :=
  shapeCast_apply x h _ _ (by
    rw [Shape.rowMajor_val_four, Shape.rowMajor_val_two]
    show ((0 * 1 + 0) * n + q.val) * m + d.val = q.val * m + d.val
    simp)

/-- A matrix [n, m] stored as the block [1, 1, n, m] reads, at (u, v, q, d), the matrix at (q, d). -/
theorem shapeCast_nm_11nm_apply (y : (⟨2, ![n, m]⟩ : Shape).Idx → α)
    (h : (⟨2, ![n, m]⟩ : Shape).ShapeCasts ⟨4, ![1, 1, n, m]⟩) (u v : Fin 1) (q : Fin n) (d : Fin m) :
    shapeCast ⟨4, ![1, 1, n, m]⟩ y h (ix4 u v q d) = y (ix2 q d) :=
  shapeCast_apply y h _ _ (by
    have hu : u.val = 0 := by omega
    have hv : v.val = 0 := by omega
    rw [Shape.rowMajor_val_four, Shape.rowMajor_val_two]
    show q.val * m + d.val = ((u.val * 1 + v.val) * n + q.val) * m + d.val
    simp [hu, hv])

end Cert.Lib.LeadingUnitPair
-- ==== Proof.KernelBlock.lean ====
/-
  One grid point's two stored values, read at an entry, are the attention of the point's blocks.

  The stored values are pure terms of the query, key, value and mask blocks, each a block [1, 1, 1024, ·] viewed as a
  matrix. Entry (q, k) of the masked score matrix reads the mask block's word at (q, k) — compared with zero, which
  gives a one-bit word — and the sum over the 64 features of query row q against key row k, times one quarter: the
  product against the transposed key matrix into a zero accumulator is that sum, and the change of float format
  before it is the identity on the extended reals. The weights' value is the row softmax of that matrix as a kernel
  spells it; the context's value is the plain product of the weights with the value matrix, a sum over the 1024 keys.
-/
import proofs.«142894_j64768106823937_2_alg».proof.Proof.Gen.KernelIdeal.Skeleton
import proofs.«142894_j64768106823937_2_alg».proof.Proof.Attention
import proofs.«142894_j64768106823937_2_alg».proof.Proof.LibTransposedMatmul
import proofs.«142894_j64768106823937_2_alg».proof.Proof.LibPlainMatmul
import proofs.«142894_j64768106823937_2_alg».proof.Proof.LibLeadingUnitPair

noncomputable section

namespace Cert.KernelIdeal.Block

open Idealize.ShloMosaic Idealize.ShloMosaic.ValueIdx Cert.KernelIdeal Cert.KernelIdeal.Gen Cert.Attention
open Cert.Lib.LeadingUnitPair

/-- The rows of a block [1, 1, 1024, 64]. -/
def rows (x : Vec Ideal S1x1x1024x64 .f32) : Fin 1024 → Fin 64 → EReal :=
  fun q d => x (ix4 (0 : Fin 1) (0 : Fin 1) q d)

/-- The one-bit mask a block [1, 1, 1024, 1024] of 32-bit words stands for: a word is set where it is not zero. -/
def maskOf (x3 : Vec Ideal S1x1x1024x1024 .i32) : Fin 1024 → Fin 1024 → BitVec 1 :=
  fun q k => IntOp.cmpi .ne (x3 (ix4 (0 : Fin 1) (0 : Fin 1) q k)) 0#32

/-- The masked, scaled score matrix as the body spells it, at (q, k). -/
theorem score_apply (x0 x1 : Vec Ideal S1x1x1024x64 .f32) (x3 : Vec Ideal S1x1x1024x1024 .i32) (q k : Fin 1024) :
    select
      (cmpi .ne (shapeCast S1024x1024 x3 shapeCasts_S1x1x1024x1024_S1024x1024) (constantI S1024x1024 32 0#32))
      (broadcast S1024x1024 (Scalar.ofBits (F := Ideal) .f32 0xCE6E6B28#32))
      (mulf
        (matmul dot_S1024x64_S1024x64_S1024x1024_1_1_0_0_n_n none
          (truncf .bf16 (shapeCast S1024x64 x0 shapeCasts_S1x1x1024x64_S1024x64) bitsLt_bf16_f32)
          (truncf .bf16 (shapeCast S1024x64 x1 shapeCasts_S1x1x1024x64_S1024x64) bitsLt_bf16_f32)
          (constant S1024x1024 .f32 0x00000000#32))
        (broadcast S1024x1024 (Scalar.ofBits (F := Ideal) .f32 0x3E800000#32))) (ix2 q k)
      = score (rows x0) (rows x1) (maskOf x3) q k := by
  show Scalar.select
      (IntOp.cmpi .ne (shapeCast S1024x1024 x3 shapeCasts_S1x1x1024x1024_S1024x1024 (ix2 q k)) 0#32)
      (Ideal.ofBits .f32 0xCE6E6B28#32)
      (matmul dot_S1024x64_S1024x64_S1024x1024_1_1_0_0_n_n none
          (truncf .bf16 (shapeCast S1024x64 x0 shapeCasts_S1x1x1024x64_S1024x64) bitsLt_bf16_f32)
          (truncf .bf16 (shapeCast S1024x64 x1 shapeCasts_S1x1x1024x64_S1024x64) bitsLt_bf16_f32)
          (constant S1024x1024 .f32 0x00000000#32) (ix2 q k) * Ideal.ofBits .f32 0x3E800000#32) = _
  rw [shapeCast_11nm_nm_apply]
  unfold score
  refine congrArg (fun z => Scalar.select (maskOf x3 q k) (Ideal.ofBits .f32 0xCE6E6B28#32) (z * Ideal.ofBits .f32 0x3E800000#32)) ?_
  refine (Cert.Lib.TransposedMatmul.matmul_zero_apply dot_S1024x64_S1024x64_S1024x1024_1_1_0_0_n_n rfl rfl rfl rfl rfl rfl none
    (truncf .bf16 (shapeCast S1024x64 x0 shapeCasts_S1x1x1024x64_S1024x64) bitsLt_bf16_f32)
    (truncf .bf16 (shapeCast S1024x64 x1 shapeCasts_S1x1x1024x64_S1024x64) bitsLt_bf16_f32) q k).trans ?_
  refine Finset.sum_congr rfl fun d _ => ?_
  show shapeCast S1024x64 x0 shapeCasts_S1x1x1024x64_S1024x64 (ix2 q d)
      * shapeCast S1024x64 x1 shapeCasts_S1x1x1024x64_S1024x64 (ix2 k d) = _
  rw [shapeCast_11nm_nm_apply, shapeCast_11nm_nm_apply]
  rfl

/-- The weights' stored value at (0, 0, q, k): the attention weights of the blocks' rows. -/
theorem attn_block_apply (x0 x1 : Vec Ideal S1x1x1024x64 .f32) (x3 : Vec Ideal S1x1x1024x1024 .i32) (q k : Fin 1024) :
    k0_pay3 (F := Ideal) x0 x1 x3 (ix4 (0 : Fin 1) (0 : Fin 1) q k) = probs (rows x0) (rows x1) (maskOf x3) q k := by
  unfold k0_pay3
  dsimp only
  refine (shapeCast_nm_11nm_apply _ _ 0 0 q k).trans ?_
  refine (Cert.Lib.RowSoftmax.softmax_apply _ _ _ _ _ _ _ q k).trans ?_
  exact congrArg (fun s => softmax s q k) (funext fun q' => funext fun k' => score_apply x0 x1 x3 q' k')

/-- The context's stored value at (0, 0, q, d): the context of the blocks' rows. -/
theorem ctx_block_apply (x0 x1 x2 : Vec Ideal S1x1x1024x64 .f32) (x3 : Vec Ideal S1x1x1024x1024 .i32)
    (q : Fin 1024) (d : Fin 64) :
    k0_pay1 (F := Ideal) (k0_pay2 x2) (k0_pay3 x0 x1 x3) (ix4 (0 : Fin 1) (0 : Fin 1) q d)
      = context (rows x0) (rows x1) (rows x2) (maskOf x3) q d := by
  unfold k0_pay1 k0_pay2
  dsimp only
  refine (shapeCast_nm_11nm_apply _ _ 0 0 q d).trans ?_
  refine (Cert.Lib.PlainMatmul.matmul_zero_apply dot_S1024x1024_S1024x64_S1024x64_1_0_0_1_n_n rfl rfl rfl rfl rfl rfl none
    (truncf .bf16 (shapeCast S1024x1024 (k0_pay3 x0 x1 x3) shapeCasts_S1x1x1024x1024_S1024x1024) bitsLt_bf16_f32)
    (truncf .bf16 (shapeCast S1024x64 x2 shapeCasts_S1x1x1024x64_S1024x64) bitsLt_bf16_f32) q d).trans ?_
  unfold context
  refine Finset.sum_congr rfl fun k _ => ?_
  show shapeCast S1024x1024 (k0_pay3 x0 x1 x3) shapeCasts_S1x1x1024x1024_S1024x1024 (ix2 q k)
      * shapeCast S1024x64 x2 shapeCasts_S1x1x1024x64_S1024x64 (ix2 k d) = _
  rw [shapeCast_11nm_nm_apply, shapeCast_11nm_nm_apply, attn_block_apply]
  rfl

end Cert.KernelIdeal.Block

end
-- ==== Proof.KernelArrays.lean ====
/-
  From the blocks to the two result arrays of the kernel's run.

  The grid has one point per (batch, head) pair; every window's block at the point (b, h) is the slab (b, h, ·, ·) of
  its array: block coordinate (b, h, 0, 0), block extents [1, 1, 1024, ·]. So at a point the query, key and value
  blocks are the rows of head (b, h) of the three argument arrays, and the mask block holds the one-bit mask words of
  head (b, h) widened to 32 bits — the host operation before the call — which the body compares with zero: a widened
  one-bit word differs from zero exactly when the bit is one. What the point writes back to the weights' array is
  therefore block (b, h) of the attention weights of the whole arguments, and to the context's array block (b, h) of
  the context of the whole arguments. The 64 blocks tile each array — the point that covers (b, h, ·, ·) is (b, h) —,
  so each array ends holding the whole-array function.
-/
import proofs.«142894_j64768106823937_2_alg».proof.Proof.Gen.KernelIdeal.Value
import proofs.«142894_j64768106823937_2_alg».proof.Proof.KernelPieces
import proofs.«142894_j64768106823937_2_alg».proof.Proof.KernelBlock
import Idealize.ShloMosaic.Lib.Pipeline.Value
import Idealize.ShloMosaic.Lib.StableHlo.Run

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx Cert.Attention
open Idealize.ShloMosaic.Pipeline (Dat)

variable (m : (ℓ : Loc nD τ sig) → Buf (Elt Ideal) ℓ) (ρ : Dev nD → PrngReg)

/-! ## The mask -/

/-- A one-bit word widened to 32 bits differs from zero exactly when the bit is one. -/
theorem widened_ne_zero (b : BitVec 1) : IntOp.cmpi .ne (b.setWidth 32) 0#32 = b := by
  have hb : b = 0#1 ∨ b = 1#1 := by
    by_cases h : b = 1#1
    · exact Or.inr h
    · exact Or.inl (eq_zero_of_ne_one h)
  rcases hb with h | h <;> (rw [h]; try decide)

/-- The mask array the region finds: the mask argument's one-bit words widened to 32 bits. -/
theorem V_mask (c : Dev nD) :
    (V m c main_v0 : S4x16x1024x1024.Idx → BitVec 32) = extui 32 (m ((c : Thread nD τ).loc main_arg3)) natLt_1_32 := by
  dsimp only [Gen.V, Gen.hostOps0]; after_results

/-! ## One block as the whole-array function at the block's place -/

/-- A rank-four index with two leading unit coordinates is (0, 0, ·, ·). -/
theorem eq_ix4_unit {n k : ℕ} (y : (⟨4, ![1, 1, n, k]⟩ : Shape).Idx) :
    y = ix4 (0 : Fin 1) (0 : Fin 1) (y 2 : Fin n) (y 3 : Fin k) := by
  funext a
  match a with
  | ⟨0, _⟩ => exact Fin.ext (Nat.lt_one_iff.mp (y 0).isLt)
  | ⟨1, _⟩ => exact Fin.ext (Nat.lt_one_iff.mp (y 1).isLt)
  | ⟨2, _⟩ => rfl
  | ⟨3, _⟩ => rfl

/-- The weights' stored value at `y` is the attention weights of the whole arguments at any array index `i` whose
    query and key coordinates are `y`'s, when the blocks are the rows of head (i 0, i 1). -/
theorem attn_at (Q K : FVec Ideal S4x16x1024x64 .f32) (M : IVec S4x16x1024x1024 1)
    (x0 x1 : Vec Ideal S1x1x1024x64 .f32) (x3 : Vec Ideal S1x1x1024x1024 .i32)
    (y : S1x1x1024x1024.Idx) (i : S4x16x1024x1024.Idx)
    (hq : (i 2).val = (y 2).val) (hk : (i 3).val = (y 3).val)
    (h0 : ∀ (q : Fin 1024) (d : Fin 64), x0 (ix4 (0 : Fin 1) (0 : Fin 1) q d) = Q (ix4 (i 0) (i 1) q d))
    (h1 : ∀ (q : Fin 1024) (d : Fin 64), x1 (ix4 (0 : Fin 1) (0 : Fin 1) q d) = K (ix4 (i 0) (i 1) q d))
    (h3 : ∀ (q k : Fin 1024), x3 (ix4 (0 : Fin 1) (0 : Fin 1) q k) = (M (ix4 (i 0) (i 1) q k)).setWidth 32) :
    k0_pay3 (F := Ideal) x0 x1 x3 y = attnOut Q K M i := by
  refine (congrArg (k0_pay3 (F := Ideal) x0 x1 x3) (eq_ix4_unit (n := 1024) (k := 1024) y)).trans ?_
  refine (Block.attn_block_apply x0 x1 x3 (y 2) (y 3)).trans ?_
  have e0 : Block.rows x0 = head Q (i 0) (i 1) := funext fun q => funext fun d => h0 q d
  have e1 : Block.rows x1 = head K (i 0) (i 1) := funext fun q => funext fun d => h1 q d
  have e3 : Block.maskOf x3 = headMask M (i 0) (i 1) := funext fun q => funext fun k => by
    show IntOp.cmpi .ne (x3 (ix4 (0 : Fin 1) (0 : Fin 1) q k)) 0#32 = M (ix4 (i 0) (i 1) q k)
    rw [h3, widened_ne_zero]
  have e2q : (i 2 : Fin 1024) = y 2 := Fin.ext hq
  have e3k : (i 3 : Fin 1024) = y 3 := Fin.ext hk
  unfold attnOut
  rw [e0, e1, e3, e2q, e3k]

/-- The context's stored value at `y` is the context of the whole arguments at any array index `i` whose query and
    feature coordinates are `y`'s, when the blocks are the rows of head (i 0, i 1). -/
theorem ctx_at (Q K Vv : FVec Ideal S4x16x1024x64 .f32) (M : IVec S4x16x1024x1024 1)
    (x0 x1 x2 : Vec Ideal S1x1x1024x64 .f32) (x3 : Vec Ideal S1x1x1024x1024 .i32)
    (y : S1x1x1024x64.Idx) (i : S4x16x1024x64.Idx)
    (hq : (i 2).val = (y 2).val) (hd : (i 3).val = (y 3).val)
    (h0 : ∀ (q : Fin 1024) (d : Fin 64), x0 (ix4 (0 : Fin 1) (0 : Fin 1) q d) = Q (ix4 (i 0) (i 1) q d))
    (h1 : ∀ (q : Fin 1024) (d : Fin 64), x1 (ix4 (0 : Fin 1) (0 : Fin 1) q d) = K (ix4 (i 0) (i 1) q d))
    (h2 : ∀ (q : Fin 1024) (d : Fin 64), x2 (ix4 (0 : Fin 1) (0 : Fin 1) q d) = Vv (ix4 (i 0) (i 1) q d))
    (h3 : ∀ (q k : Fin 1024), x3 (ix4 (0 : Fin 1) (0 : Fin 1) q k) = (M (ix4 (i 0) (i 1) q k)).setWidth 32) :
    k0_pay1 (F := Ideal) (k0_pay2 x2) (k0_pay3 x0 x1 x3) y = ctxOut Q K Vv M i := by
  refine (congrArg (k0_pay1 (F := Ideal) (k0_pay2 x2) (k0_pay3 x0 x1 x3)) (eq_ix4_unit (n := 1024) (k := 64) y)).trans ?_
  refine (Block.ctx_block_apply x0 x1 x2 x3 (y 2) (y 3)).trans ?_
  have e0 : Block.rows x0 = head Q (i 0) (i 1) := funext fun q => funext fun d => h0 q d
  have e1 : Block.rows x1 = head K (i 0) (i 1) := funext fun q => funext fun d => h1 q d
  have e2 : Block.rows x2 = head Vv (i 0) (i 1) := funext fun q => funext fun d => h2 q d
  have e3 : Block.maskOf x3 = headMask M (i 0) (i 1) := funext fun q => funext fun k => by
    show IntOp.cmpi .ne (x3 (ix4 (0 : Fin 1) (0 : Fin 1) q k)) 0#32 = M (ix4 (i 0) (i 1) q k)
    rw [h3, widened_ne_zero]
  have e2q : (i 2 : Fin 1024) = y 2 := Fin.ext hq
  have e3d : (i 3 : Fin 64) = y 3 := Fin.ext hd
  unfold ctxOut
  rw [e0, e1, e2, e3, e2q, e3d]

/-! ## The index maps, decided over the grid -/

/-- Every window's block at a point sits at the same (batch, head) coordinates as the two outputs' blocks, and at
    coordinate zero on the two trailing axes. -/
theorem idx_facts : ∀ t : Fin cfg0.N,
    (win0_0.index t (0 : Fin 4) = win0_5.index t (0 : Fin 4) ∧ win0_0.index t (1 : Fin 4) = win0_5.index t (1 : Fin 4)
      ∧ win0_0.index t (2 : Fin 4) = 0 ∧ win0_0.index t (3 : Fin 4) = 0)
    ∧ (win0_1.index t (0 : Fin 4) = win0_5.index t (0 : Fin 4) ∧ win0_1.index t (1 : Fin 4) = win0_5.index t (1 : Fin 4)
      ∧ win0_1.index t (2 : Fin 4) = 0 ∧ win0_1.index t (3 : Fin 4) = 0)
    ∧ (win0_2.index t (0 : Fin 4) = win0_5.index t (0 : Fin 4) ∧ win0_2.index t (1 : Fin 4) = win0_5.index t (1 : Fin 4)
      ∧ win0_2.index t (2 : Fin 4) = 0 ∧ win0_2.index t (3 : Fin 4) = 0)
    ∧ (win0_3.index t (0 : Fin 4) = win0_5.index t (0 : Fin 4) ∧ win0_3.index t (1 : Fin 4) = win0_5.index t (1 : Fin 4)
      ∧ win0_3.index t (2 : Fin 4) = 0 ∧ win0_3.index t (3 : Fin 4) = 0)
    ∧ (win0_4.index t (0 : Fin 4) = win0_5.index t (0 : Fin 4) ∧ win0_4.index t (1 : Fin 4) = win0_5.index t (1 : Fin 4)
      ∧ win0_4.index t (2 : Fin 4) = 0 ∧ win0_4.index t (3 : Fin 4) = 0)
    ∧ (win0_5.index t (0 : Fin 4) ≤ 3 ∧ win0_5.index t (1 : Fin 4) ≤ 15
      ∧ win0_5.index t (2 : Fin 4) = 0 ∧ win0_5.index t (3 : Fin 4) = 0) :=
  (by decide +kernel : ∀ t : Fin grid0.N, _)

/-- Every (batch, head) pair is some point's block coordinate. -/
theorem idx_onto : ∀ (b : Fin 4) (h : Fin 16), ∃ t : Fin cfg0.N, win0_5.index t = ![b.val, h.val, 0, 0] :=
  (by decide +kernel : ∀ (b : Fin 4) (h : Fin 16), ∃ t : Fin grid0.N, win0_5.index t = ![b.val, h.val, 0, 0])

/-! ## What a point writes back -/

/-- What point `t` writes back to the weights' array is block `t` of the attention weights of the arguments. -/
theorem flushed5_eq (c : Dev nD) (t : Fin cfg0.N) :
    (dats m 0 c).flushed 5 t
      = ((cfg0.win 5).blk t).view.read (Elt Ideal) (attnOut (m ((c : Thread nD τ).loc main_arg0)) (m ((c : Thread nD τ).loc main_arg1)) (m ((c : Thread nD τ).loc main_arg3))) := by
  rw [Cert.KernelIdeal.Value.flushed5_A, Pieces.attn_piece]
  obtain ⟨⟨a00, a01, a02, a03⟩, ⟨a10, a11, a12, a13⟩, ⟨a20, a21, a22, a23⟩, ⟨a30, a31, a32, a33⟩, ⟨a40, a41, a42, a43⟩, ⟨b0, b1, a52, a53⟩⟩ := idx_facts t
  funext y
  have hy0 : (y 0).val < 1 := (y 0).isLt
  have hy1 : (y 1).val < 1 := (y 1).isLt
  show k0_pay3 (F := Ideal) (iblk m c 0 t) (iblk m c 1 t) (iblk m c 3 t) y
      = attnOut (m ((c : Thread nD τ).loc main_arg0)) (m ((c : Thread nD τ).loc main_arg1)) (m ((c : Thread nD τ).loc main_arg3)) (((cfg0.win 5).blk t).view.emb y)
  refine attn_at (m ((c : Thread nD τ).loc main_arg0)) (m ((c : Thread nD τ).loc main_arg1)) (m ((c : Thread nD τ).loc main_arg3)) (iblk m c 0 t) (iblk m c 1 t) (iblk m c 3 t) y (((cfg0.win 5).blk t).view.emb y) ?_ ?_ ?_ ?_ ?_
  · show win0_5.index t (2 : Fin 4) * 1024 + 1 * (y 2).val = (y 2).val; omega
  · show win0_5.index t (3 : Fin 4) * 1024 + 1 * (y 3).val = (y 3).val; omega
  · intro q d
    show V m c main_arg0 (((cfg0.win 0).blk t).view.emb (ix4 (0 : Fin 1) (0 : Fin 1) q d)) = _
    rw [V_main_arg0]
    refine congrArg _ (funext fun a => Fin.ext ?_)
    match a with
    | ⟨0, _⟩ => show win0_0.index t (0 : Fin 4) * 1 + 1 * 0 = win0_5.index t (0 : Fin 4) * 1 + 1 * (y 0).val; omega
    | ⟨1, _⟩ => show win0_0.index t (1 : Fin 4) * 1 + 1 * 0 = win0_5.index t (1 : Fin 4) * 1 + 1 * (y 1).val; omega
    | ⟨2, _⟩ => show win0_0.index t (2 : Fin 4) * 1024 + 1 * q.val = q.val; omega
    | ⟨3, _⟩ => show win0_0.index t (3 : Fin 4) * 64 + 1 * d.val = d.val; omega
  · intro q d
    show V m c main_arg1 (((cfg0.win 1).blk t).view.emb (ix4 (0 : Fin 1) (0 : Fin 1) q d)) = _
    rw [V_main_arg1]
    refine congrArg _ (funext fun a => Fin.ext ?_)
    match a with
    | ⟨0, _⟩ => show win0_1.index t (0 : Fin 4) * 1 + 1 * 0 = win0_5.index t (0 : Fin 4) * 1 + 1 * (y 0).val; omega
    | ⟨1, _⟩ => show win0_1.index t (1 : Fin 4) * 1 + 1 * 0 = win0_5.index t (1 : Fin 4) * 1 + 1 * (y 1).val; omega
    | ⟨2, _⟩ => show win0_1.index t (2 : Fin 4) * 1024 + 1 * q.val = q.val; omega
    | ⟨3, _⟩ => show win0_1.index t (3 : Fin 4) * 64 + 1 * d.val = d.val; omega
  · intro q k
    show V m c main_v0 (((cfg0.win 3).blk t).view.emb (ix4 (0 : Fin 1) (0 : Fin 1) q k)) = _
    rw [V_mask]
    refine congrArg (fun j => ((m ((c : Thread nD τ).loc main_arg3)) j).setWidth 32) (funext fun a => Fin.ext ?_)
    match a with
    | ⟨0, _⟩ => show win0_3.index t (0 : Fin 4) * 1 + 1 * 0 = win0_5.index t (0 : Fin 4) * 1 + 1 * (y 0).val; omega
    | ⟨1, _⟩ => show win0_3.index t (1 : Fin 4) * 1 + 1 * 0 = win0_5.index t (1 : Fin 4) * 1 + 1 * (y 1).val; omega
    | ⟨2, _⟩ => show win0_3.index t (2 : Fin 4) * 1024 + 1 * q.val = q.val; omega
    | ⟨3, _⟩ => show win0_3.index t (3 : Fin 4) * 1024 + 1 * k.val = k.val; omega

/-- What point `t` writes back to the context's array is block `t` of the context of the arguments. -/
theorem flushed4_eq (c : Dev nD) (t : Fin cfg0.N) :
    (dats m 0 c).flushed 4 t
      = ((cfg0.win 4).blk t).view.read (Elt Ideal) (ctxOut (m ((c : Thread nD τ).loc main_arg0)) (m ((c : Thread nD τ).loc main_arg1)) (m ((c : Thread nD τ).loc main_arg2)) (m ((c : Thread nD τ).loc main_arg3))) := by
  rw [Cert.KernelIdeal.Value.flushed4_A, Pieces.ctx_piece]
  obtain ⟨⟨a00, a01, a02, a03⟩, ⟨a10, a11, a12, a13⟩, ⟨a20, a21, a22, a23⟩, ⟨a30, a31, a32, a33⟩, ⟨a40, a41, a42, a43⟩, ⟨b0, b1, a52, a53⟩⟩ := idx_facts t
  funext y
  have hy0 : (y 0).val < 1 := (y 0).isLt
  have hy1 : (y 1).val < 1 := (y 1).isLt
  show k0_pay1 (F := Ideal) (k0_pay2 (iblk m c 2 t)) (k0_pay3 (iblk m c 0 t) (iblk m c 1 t) (iblk m c 3 t)) y
      = ctxOut (m ((c : Thread nD τ).loc main_arg0)) (m ((c : Thread nD τ).loc main_arg1)) (m ((c : Thread nD τ).loc main_arg2)) (m ((c : Thread nD τ).loc main_arg3)) (((cfg0.win 4).blk t).view.emb y)
  refine ctx_at (m ((c : Thread nD τ).loc main_arg0)) (m ((c : Thread nD τ).loc main_arg1)) (m ((c : Thread nD τ).loc main_arg2)) (m ((c : Thread nD τ).loc main_arg3)) (iblk m c 0 t) (iblk m c 1 t) (iblk m c 2 t) (iblk m c 3 t) y (((cfg0.win 4).blk t).view.emb y) ?_ ?_ ?_ ?_ ?_ ?_
  · show win0_4.index t (2 : Fin 4) * 1024 + 1 * (y 2).val = (y 2).val; omega
  · show win0_4.index t (3 : Fin 4) * 64 + 1 * (y 3).val = (y 3).val; omega
  · intro q d
    show V m c main_arg0 (((cfg0.win 0).blk t).view.emb (ix4 (0 : Fin 1) (0 : Fin 1) q d)) = _
    rw [V_main_arg0]
    refine congrArg _ (funext fun a => Fin.ext ?_)
    match a with
    | ⟨0, _⟩ => show win0_0.index t (0 : Fin 4) * 1 + 1 * 0 = win0_4.index t (0 : Fin 4) * 1 + 1 * (y 0).val; omega
    | ⟨1, _⟩ => show win0_0.index t (1 : Fin 4) * 1 + 1 * 0 = win0_4.index t (1 : Fin 4) * 1 + 1 * (y 1).val; omega
    | ⟨2, _⟩ => show win0_0.index t (2 : Fin 4) * 1024 + 1 * q.val = q.val; omega
    | ⟨3, _⟩ => show win0_0.index t (3 : Fin 4) * 64 + 1 * d.val = d.val; omega
  · intro q d
    show V m c main_arg1 (((cfg0.win 1).blk t).view.emb (ix4 (0 : Fin 1) (0 : Fin 1) q d)) = _
    rw [V_main_arg1]
    refine congrArg _ (funext fun a => Fin.ext ?_)
    match a with
    | ⟨0, _⟩ => show win0_1.index t (0 : Fin 4) * 1 + 1 * 0 = win0_4.index t (0 : Fin 4) * 1 + 1 * (y 0).val; omega
    | ⟨1, _⟩ => show win0_1.index t (1 : Fin 4) * 1 + 1 * 0 = win0_4.index t (1 : Fin 4) * 1 + 1 * (y 1).val; omega
    | ⟨2, _⟩ => show win0_1.index t (2 : Fin 4) * 1024 + 1 * q.val = q.val; omega
    | ⟨3, _⟩ => show win0_1.index t (3 : Fin 4) * 64 + 1 * d.val = d.val; omega
  · intro q d
    show V m c main_arg2 (((cfg0.win 2).blk t).view.emb (ix4 (0 : Fin 1) (0 : Fin 1) q d)) = _
    rw [V_main_arg2]
    refine congrArg _ (funext fun a => Fin.ext ?_)
    match a with
    | ⟨0, _⟩ => show win0_2.index t (0 : Fin 4) * 1 + 1 * 0 = win0_4.index t (0 : Fin 4) * 1 + 1 * (y 0).val; omega
    | ⟨1, _⟩ => show win0_2.index t (1 : Fin 4) * 1 + 1 * 0 = win0_4.index t (1 : Fin 4) * 1 + 1 * (y 1).val; omega
    | ⟨2, _⟩ => show win0_2.index t (2 : Fin 4) * 1024 + 1 * q.val = q.val; omega
    | ⟨3, _⟩ => show win0_2.index t (3 : Fin 4) * 64 + 1 * d.val = d.val; omega
  · intro q k
    show V m c main_v0 (((cfg0.win 3).blk t).view.emb (ix4 (0 : Fin 1) (0 : Fin 1) q k)) = _
    rw [V_mask]
    refine congrArg (fun j => ((m ((c : Thread nD τ).loc main_arg3)) j).setWidth 32) (funext fun a => Fin.ext ?_)
    match a with
    | ⟨0, _⟩ => show win0_3.index t (0 : Fin 4) * 1 + 1 * 0 = win0_4.index t (0 : Fin 4) * 1 + 1 * (y 0).val; omega
    | ⟨1, _⟩ => show win0_3.index t (1 : Fin 4) * 1 + 1 * 0 = win0_4.index t (1 : Fin 4) * 1 + 1 * (y 1).val; omega
    | ⟨2, _⟩ => show win0_3.index t (2 : Fin 4) * 1024 + 1 * q.val = q.val; omega
    | ⟨3, _⟩ => show win0_3.index t (3 : Fin 4) * 1024 + 1 * k.val = k.val; omega

/-! ## The blocks tile the arrays -/

/-- An index of the weights' array is in point `t`'s block iff each coordinate is in the block's range on its axis. -/
theorem mem_blk5 (t : Fin cfg0.N) (i : S4x16x1024x1024.Idx) :
    i ∈ ((cfg0.win 5).blk t).view.set
      ↔ ∀ a : Fin 4, win0_5.index t a * S1x1x1024x1024.size a ≤ (i a).val
          ∧ (i a).val < win0_5.index t a * S1x1x1024x1024.size a + S1x1x1024x1024.size a := by
  show i ∈ ((View.whole main_v1_1).slice (win0_5.rect t)).set ↔ _
  rw [View.set_slice_whole, Rect.mem_set_unit]
  exact Iff.rfl

/-- An index of the context's array is in point `t`'s block iff each coordinate is in the block's range on its axis. -/
theorem mem_blk4 (t : Fin cfg0.N) (i : S4x16x1024x64.Idx) :
    i ∈ ((cfg0.win 4).blk t).view.set
      ↔ ∀ a : Fin 4, win0_4.index t a * S1x1x1024x64.size a ≤ (i a).val
          ∧ (i a).val < win0_4.index t a * S1x1x1024x64.size a + S1x1x1024x64.size a := by
  show i ∈ ((View.whole main_v1_0).slice (win0_4.rect t)).set ↔ _
  rw [View.set_slice_whole, Rect.mem_set_unit]
  exact Iff.rfl

/-- Every index of the weights' array is in the block of the point at its (batch, head) coordinates. -/
theorem cover5 (i : S4x16x1024x1024.Idx) :
    ∃ t : Fin cfg0.N, (cfg0.win 5).flush t = true ∧ i ∈ ((cfg0.win 5).blk t).view.set := by
  have hi0 : (i 0).val < 4 := (i 0).isLt
  have hi1 : (i 1).val < 16 := (i 1).isLt
  have hi2 : (i 2).val < 1024 := (i 2).isLt
  have hi3 : (i 3).val < 1024 := (i 3).isLt
  obtain ⟨t, ht⟩ := idx_onto ⟨(i 0).val, hi0⟩ ⟨(i 1).val, hi1⟩
  have q0 : win0_5.index t (0 : Fin 4) = (i 0).val := congrFun ht 0
  have q1 : win0_5.index t (1 : Fin 4) = (i 1).val := congrFun ht 1
  have q2 : win0_5.index t (2 : Fin 4) = 0 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 1024 ≤ (i 2).val ∧ (i 2).val < win0_5.index t (2 : Fin 4) * 1024 + 1024; omega
  | ⟨3, _⟩ => show win0_5.index t (3 : Fin 4) * 1024 ≤ (i 3).val ∧ (i 3).val < win0_5.index t (3 : Fin 4) * 1024 + 1024; omega

/-- Every index of the context's array is in the block of the point at its (batch, head) coordinates. -/
theorem cover4 (i : S4x16x1024x64.Idx) :
    ∃ t : Fin cfg0.N, (cfg0.win 4).flush t = true ∧ i ∈ ((cfg0.win 4).blk t).view.set := by
  have hi0 : (i 0).val < 4 := (i 0).isLt
  have hi1 : (i 1).val < 16 := (i 1).isLt
  have hi2 : (i 2).val < 1024 := (i 2).isLt
  have hi3 : (i 3).val < 64 := (i 3).isLt
  obtain ⟨t, ht⟩ := idx_onto ⟨(i 0).val, hi0⟩ ⟨(i 1).val, hi1⟩
  obtain ⟨-, -, -, -, ⟨a40, a41, a42, a43⟩, -⟩ := idx_facts t
  have q0 : win0_5.index t (0 : Fin 4) = (i 0).val := congrFun ht 0
  have q1 : win0_5.index t (1 : Fin 4) = (i 1).val := congrFun ht 1
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 64 ≤ (i 3).val ∧ (i 3).val < win0_4.index t (3 : Fin 4) * 64 + 64; omega

/-! ## The two arrays after the run, and the run -/

/-- The weights' array after the run: the attention weights of the arguments. -/
theorem final5 (c : Dev nD) : (dats m 0 c).arrAt 5 cfg0.N = attnOut (m ((c : Thread nD τ).loc main_arg0)) (m ((c : Thread nD τ).loc main_arg1)) (m ((c : Thread nD τ).loc main_arg3)) :=
  (dats m 0 c).arrAt_eq_of_cover 5 (attnOut (m ((c : Thread nD τ).loc main_arg0)) (m ((c : Thread nD τ).loc main_arg1)) (m ((c : Thread nD τ).loc main_arg3))) (fun t _ => flushed5_eq m c t) cover5

/-- The context's array after the run: the context of the arguments. -/
theorem final4 (c : Dev nD) : (dats m 0 c).arrAt 4 cfg0.N = ctxOut (m ((c : Thread nD τ).loc main_arg0)) (m ((c : Thread nD τ).loc main_arg1)) (m ((c : Thread nD τ).loc main_arg2)) (m ((c : Thread nD τ).loc main_arg3)) :=
  (dats m 0 c).arrAt_eq_of_cover 4 (ctxOut (m ((c : Thread nD τ).loc main_arg0)) (m ((c : Thread nD τ).loc main_arg1)) (m ((c : Thread nD τ).loc main_arg2)) (m ((c : Thread nD τ).loc main_arg3))) (fun t _ => flushed4_eq m c t) cover4

/-- The kernel's run: every weakly fair execution terminates with the context and the attention weights of the
    arguments in the two result arrays, and the arguments unchanged. -/
theorem run : θ_run defs (onTc (τ := τ) (main (F := Ideal))) ⟨m, fun _ => 0, ρ⟩ fun r => ∀ c : Dev nD,
      r.2.mem ((c : Thread nD τ).loc main_v1_0) = ctxOut (m ((c : Thread nD τ).loc main_arg0)) (m ((c : Thread nD τ).loc main_arg1)) (m ((c : Thread nD τ).loc main_arg2)) (m ((c : Thread nD τ).loc main_arg3))
      ∧ r.2.mem ((c : Thread nD τ).loc main_v1_1) = attnOut (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Cert.KernelIdeal.Value.run_blocks m ρ)

end Cert.KernelIdeal.Arrays

end
-- ==== Proof.Scale.lean ====
/-
  The scale of the attention scores. The kernel multiplies the score matrix by the literal one quarter; the
  reference multiplies it by the quotient of one by the square root of sixteen, computed by two host
  operations. Over the extended reals the square root of sixteen is the real four, so that quotient is the
  product of one with the real one quarter: the same number. The literals are read here, once: one, sixteen,
  one quarter, zero and minus infinity as the extended reals their binary patterns denote.
-/
import Idealize.ShloMosaic.PureOps.Ideal

noncomputable section

namespace Cert.Attention.Scale

open Idealize.ShloMosaic

/-- The pattern of 16.0 denotes the real sixteen. -/
theorem ofBits_sixteen : Ideal.ofBits .f32 0x41800000#32 = ((16 : ℝ) : EReal) := by
  simp [Ideal.ofBits, Ideal.ieee, -EReal.coe_mul]; norm_num

/-- The pattern of 1.0 denotes the real one. -/
theorem ofBits_one : Ideal.ofBits .f32 0x3F800000#32 = ((1 : ℝ) : EReal) := by
  simp [Ideal.ofBits, Ideal.ieee, -EReal.coe_mul]; norm_num

/-- The pattern of 0.25 denotes the real one quarter. -/
theorem ofBits_quarter : Ideal.ofBits .f32 0x3E800000#32 = ((1 / 4 : ℝ) : EReal) := by
  simp [Ideal.ofBits, Ideal.ieee, -EReal.coe_mul]; norm_num

/-- The pattern 0xFF800000 denotes minus infinity, the least extended real. -/
theorem ofBits_neg_inf : Ideal.ofBits .f32 0xFF800000#32 = (⊥ : EReal) := by
  simp [Ideal.ofBits, Ideal.ieee]

/-- The square root of sixteen is four. -/
theorem sqrt_sixteen : Real.sqrt 16 = 4 := by
  rw [show (16 : ℝ) = 4 ^ 2 by norm_num]
  exact Real.sqrt_sq (by norm_num)

/-- One divided by the square root of sixteen, as the reference computes it on the extended reals, is the
    kernel's literal one quarter. -/
theorem scale_eq :
    Ideal.div (Ideal.ofBits .f32 0x3F800000#32) (Ideal.sqrt (Ideal.ofBits .f32 0x41800000#32))
      = Ideal.ofBits .f32 0x3E800000#32 := by
  rw [ofBits_one, ofBits_sixteen, ofBits_quarter, Ideal.sqrt_coe, if_neg (by norm_num), sqrt_sixteen,
    Ideal.div_coe (by norm_num : (4 : ℝ) ≠ 0), ← EReal.coe_mul]
  norm_num

/-- The maximum of minus infinity and any extended real is that extended real. -/
theorem max_neg_inf (x : EReal) : max (Ideal.ofBits .f32 0xFF800000#32) x = x := by
  rw [ofBits_neg_inf]; exact max_bot_left x

end Cert.Attention.Scale

end
-- ==== Proof.ReferenceValue.lean ====
/-
  The reference's two results are the attention weights and the context of its arguments.

  The reference computes, over whole arrays: the scale as one divided by the square root of sixteen (the real one
  quarter, the kernel's literal); the batched product of queries against keys over the 64 features, times the scale;
  the select against the mask with the fill value; the maximum of each row, from minus infinity, and once more the
  maximum of that with minus infinity, which changes nothing; the exponential of the difference; the sum of each
  row from zero; the quotient; and the batched product of the weights with the values over the 1024 keys. Read at
  coordinates (batch, head, query, key), each stage is the corresponding stage of `Cert.Attention` for that head.
-/
import proofs.«142894_j64768106823937_2_alg».proof.Proof.Gen.ReferenceIdeal.Read
import proofs.«142894_j64768106823937_2_alg».proof.Proof.Attention
import proofs.«142894_j64768106823937_2_alg».proof.Proof.Scale
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.Attention

variable (Q K Vv : FVec Ideal S4x16x1024x64 .f32) (M : IVec S4x16x1024x1024 1)

/-- The scale, repeated over the score array: the real one quarter, as the literal the kernel spells. -/
theorem scale_apply (i : S4x16x1024x1024.Idx) : val_main_v3 (F := Ideal) i = Ideal.ofBits .f32 0x3E800000#32 := by
  rw [val_main_v3_apply, val_main_v1_apply, val_main_cst_0_apply, val_main_v0_apply, val_main_cst_apply]
  exact Cert.Attention.Scale.scale_eq

/-- The masked, scaled scores at (b, h, q, k). -/
theorem score_apply (b : Fin 4) (h : Fin 16) (q k : Fin 1024) :
    val_main_v5 (F := Ideal) Q K M (ix4 b h q k) = score (head Q b h) (head K b h) (headMask M b h) q k := by
  rw [val_main_v5_apply, val_main_call0_v0_apply, val_main_cst_1_apply, val_main_v4_apply, val_main_v2_apply, scale_apply]
  unfold score
  refine congrArg (fun z => Scalar.select (headMask M b h q k) (Ideal.ofBits .f32 0xCE6E6B28#32) (z * Ideal.ofBits .f32 0x3E800000#32))
    (Finset.sum_congr rfl fun d _ => ?_)
  have el : lidx_main_v2 (ix4 b h q k) d = ix4 b h q d :=
    funext fun a => Fin.ext (by match a with | ⟨0, _⟩ => rfl | ⟨1, _⟩ => rfl | ⟨2, _⟩ => rfl | ⟨3, _⟩ => rfl)
  have er : ridx_main_v2 (ix4 b h q k) d = ix4 b h k d :=
    funext fun a => Fin.ext (by match a with | ⟨0, _⟩ => rfl | ⟨1, _⟩ => rfl | ⟨2, _⟩ => rfl | ⟨3, _⟩ => rfl)
  rw [el, er]
  rfl

/-- The row (b, h, q) with key coordinate `k` put back on the reduced axis is (b, h, q, k). -/
theorem lift_row (hR : S4x16x1024x1024.Reduces [(3 : Fin 4)] S4x16x1024) (b : Fin 4) (h : Fin 16) (q : Fin 1024)
    (k : Fin (S4x16x1024x1024.size 3)) : hR.lift (ix3 b h q) k = ix4 b h q (⟨k.val, k.isLt⟩ : Fin 1024) :=
  funext fun a => Fin.ext (by fin_cases a <;> rfl)

/-- The row maxima at (b, h, q): the fold of the maximum over the row's scores from minus infinity (the second
    maximum with minus infinity is the identity). -/
theorem rowmax_apply (b : Fin 4) (h : Fin 16) (q : Fin 1024) :
    val_main_v8 (F := Ideal) Q K M (ix3 b h q) = rowMax (score (head Q b h) (head K b h) (headMask M b h)) q := by
  rw [val_main_v8_apply, val_main_v7_apply, val_main_cst_3_apply]
  refine (Cert.Attention.Scale.max_neg_inf _).trans ?_
  have hR : S4x16x1024x1024.Reduces [(3 : Fin 4)] S4x16x1024 := by decide
  unfold val_main_v6
  rw [Host.reduce_eq_fold_single FloatOps.maximumf _ _ reducesTo_S4x16x1024x1024_S4x16x1024_d3 hR h_S_]
  unfold rowMax
  refine congrArg (fun f => Finset.fold max (Ideal.ofBits .f32 0xFF800000#32) f (Finset.univ : Finset (Fin 1024))) (funext fun k => ?_)
  show val_main_v5 (F := Ideal) Q K M (hR.lift (ix3 b h q) k) = _
  rw [lift_row, score_apply]
  rfl

/-- The exponentials at (b, h, q, k). -/
theorem weight_apply (b : Fin 4) (h : Fin 16) (q k : Fin 1024) :
    val_main_v12 (F := Ideal) Q K M (ix4 b h q k) = weight (score (head Q b h) (head K b h) (headMask M b h)) q k := by
  rw [val_main_v12_apply, val_main_v11_apply, val_main_v10_apply, val_main_v9_apply, score_apply]
  have e : idx_main_v9 (idx_main_v10 (ix4 b h q k)) = ix3 b h q :=
    funext fun a => Fin.ext (by match a with | ⟨0, _⟩ => rfl | ⟨1, _⟩ => rfl | ⟨2, _⟩ => rfl)
  rw [e, rowmax_apply]
  rfl

/-- The row sums at (b, h, q): from zero, the sum of the row's exponentials. -/
theorem rowsum_apply (b : Fin 4) (h : Fin 16) (q : Fin 1024) :
    val_main_v13 (F := Ideal) Q K M (ix3 b h q)
      = ∑ k : Fin 1024, weight (score (head Q b h) (head K b h) (headMask M b h)) q k := by
  rw [val_main_v13_apply, val_main_cst_4_apply]
  refine (congrArg (· + _) Ideal.ofBits_zero_f32).trans ((zero_add _).trans (Finset.sum_congr rfl fun k _ => ?_))
  have e : idx_main_v13 (ix3 b h q) k = ix4 b h q k :=
    funext fun a => Fin.ext (by match a with | ⟨0, _⟩ => rfl | ⟨1, _⟩ => rfl | ⟨2, _⟩ => rfl | ⟨3, _⟩ => rfl)
  rw [e, weight_apply]

/-- The attention weights at (b, h, q, k). -/
theorem attn_apply (b : Fin 4) (h : Fin 16) (q k : Fin 1024) :
    val_main_v16 (F := Ideal) Q K M (ix4 b h q k) = probs (head Q b h) (head K b h) (headMask M b h) q k := by
  rw [val_main_v16_apply, val_main_v15_apply, val_main_v14_apply, weight_apply]
  have e : idx_main_v14 (idx_main_v15 (ix4 b h q k)) = ix3 b h q :=
    funext fun a => Fin.ext (by match a with | ⟨0, _⟩ => rfl | ⟨1, _⟩ => rfl | ⟨2, _⟩ => rfl)
  rw [e, rowsum_apply]
  rfl

/-- The context at (b, h, q, d). -/
theorem ctx_apply (b : Fin 4) (h : Fin 16) (q : Fin 1024) (d : Fin 64) :
    val_main_v17 (F := Ideal) Q K Vv M (ix4 b h q d)
      = context (head Q b h) (head K b h) (head Vv b h) (headMask M b h) q d := by
  rw [val_main_v17_apply]
  unfold context
  refine Finset.sum_congr rfl fun k _ => ?_
  have el : lidx_main_v17 (ix4 b h q d) k = ix4 b h q k :=
    funext fun a => Fin.ext (by match a with | ⟨0, _⟩ => rfl | ⟨1, _⟩ => rfl | ⟨2, _⟩ => rfl | ⟨3, _⟩ => rfl)
  have er : ridx_main_v17 (ix4 b h q d) k = ix4 b h k d :=
    funext fun a => Fin.ext (by match a with | ⟨0, _⟩ => rfl | ⟨1, _⟩ => rfl | ⟨2, _⟩ => rfl | ⟨3, _⟩ => rfl)
  rw [el, er, attn_apply]
  rfl

/-- The reference's second result is the attention weights of its arguments. -/
theorem attn_eq : val_main_v16 (F := Ideal) Q K M = attnOut Q K M := funext fun i =>
  (congrArg (val_main_v16 (F := Ideal) Q K M) (eq_ix4 (n0 := 4) (n1 := 16) (n2 := 1024) (n3 := 1024) i)).trans
    (attn_apply Q K M (i 0) (i 1) (i 2) (i 3))

/-- The reference's first result is the context of its arguments. -/
theorem ctx_eq : val_main_v17 (F := Ideal) Q K Vv M = ctxOut Q K Vv M := funext fun i =>
  (congrArg (val_main_v17 (F := Ideal) Q K Vv M) (eq_ix4 (n0 := 4) (n1 := 16) (n2 := 1024) (n3 := 64) i)).trans
    (ctx_apply Q K Vv M (i 0) (i 1) (i 2) (i 3))

end Cert.ReferenceIdeal.RefValue

end
-- ==== Proof.lean ====
/-
  Scaled dot-product attention with a boolean mask, over queries, keys and values of shape [4, 16, 1024, 64] and a mask of
  shape [4, 16, 1024, 1024]: a kernel that computes one (batch, head) pair per grid point against the reference that
  computes all of them at once.

  Both compute, for each head, the scores  (Σ_d q·k)·scale  with the fill value -1e9 where the mask is set, the row
  softmax  exp(s − max s) / Σ exp(s − max s)  of the scores, and the product of those weights with the values. On the
  extended reals the two are the same expression tree, entry by entry, up to four points, none of which needs an
  algebraic law beyond evaluating a literal:
    * the kernel's scale is the literal one quarter, the reference's is one divided by the square root of sixteen,
      which is the real one quarter (Proof/Scale.lean);
    * the reference takes the maximum of each row's maximum with minus infinity once more, which is the identity;
    * the kernel selects on "the mask word widened to 32 bits differs from zero", the reference on the one-bit word;
    * the kernel's products are into a zero accumulator and through a narrower float format, which on the extended
      reals are the plain sums the reference's products are.
  So no finiteness of the inputs is used. The kernel's run is read block by block (what the body stores, Proof/KernelPieces
  and Proof/KernelBlock; where the blocks sit in the arrays and that they tile them, Proof/KernelArrays); the reference's
  run stage by stage (Proof/ReferenceValue); both end at the functions `Cert.Attention.ctxOut` and `Cert.Attention.attnOut`
  of the argument arrays (Proof/Attention). The idealization rewrote nothing, so its preservation claim is trivial.
-/
import proofs.«142894_j64768106823937_2_alg».proof.Defs
import proofs.«142894_j64768106823937_2_alg».proof.Proof.Gen.Kernel
import proofs.«142894_j64768106823937_2_alg».proof.Proof.Gen.Kernel.Skeleton
import proofs.«142894_j64768106823937_2_alg».proof.Proof.Gen.Kernel.Launch
import proofs.«142894_j64768106823937_2_alg».proof.Proof.Gen.Kernel.Points
import proofs.«142894_j64768106823937_2_alg».proof.Proof.Gen.Kernel.Frame
import proofs.«142894_j64768106823937_2_alg».proof.Proof.Gen.KernelIdeal
import proofs.«142894_j64768106823937_2_alg».proof.Proof.Gen.KernelIdeal.Skeleton
import proofs.«142894_j64768106823937_2_alg».proof.Proof.Gen.KernelIdeal.Launch
import proofs.«142894_j64768106823937_2_alg».proof.Proof.Gen.KernelIdeal.Points
import proofs.«142894_j64768106823937_2_alg».proof.Proof.Gen.KernelIdeal.Frame
import proofs.«142894_j64768106823937_2_alg».proof.Proof.Gen.ReferenceIdeal
import proofs.«142894_j64768106823937_2_alg».proof.Proof.Gen.Pre_finite_inputs
import proofs.«142894_j64768106823937_2_alg».proof.Proof.Gen.KernelIdeal.Value
import proofs.«142894_j64768106823937_2_alg».proof.Proof.Gen.ReferenceIdeal.Run
import proofs.«142894_j64768106823937_2_alg».proof.Proof.Gen.ReferenceIdeal.Read
import proofs.«142894_j64768106823937_2_alg».proof.Proof.KernelArrays
import proofs.«142894_j64768106823937_2_alg».proof.Proof.ReferenceValue
import Idealize.ShloMosaic.Adequacy
import Idealize.ShloMosaic.Init

noncomputable section

namespace Cert.Proof

open Idealize.ShloMosaic Idealize.ShloMosaic.TcCoe Idealize.SL.Sem Cert.Attention

/-- The kernel as printed runs and leaves its arguments unchanged. -/
theorem frame_kernel [Cert.Kernel.Facts] [Cert.Pre_finite_inputs.Facts] : Cert.frame_Kernel :=
  fun m ρ _ => Cert.Kernel.Gen.frame m ρ

/-- The idealized kernel runs and leaves its arguments unchanged. -/
theorem frame_kernelIdeal [Cert.KernelIdeal.Facts] [Cert.Pre_finite_inputs.Facts] : Cert.frame_KernelIdeal :=
  fun m ρ _ => Cert.KernelIdeal.Gen.frame m ρ

/-- The idealized reference runs and leaves its arguments unchanged: its run, with the two results dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- From memories that agree on the four arguments, both programs end with the context and the attention weights of
    those arguments in their two results. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v17_eq, Cert.ReferenceIdeal.RefValue.ctx_eq,
      (hagree c).1, (hagree c).2.1, (hagree c).2.2.1, (hagree c).2.2.2]
  · rw [(h c).2.1, Cert.ReferenceIdeal.Read.val_main_v16_eq, Cert.ReferenceIdeal.RefValue.attn_eq,
      (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
